-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S16384x4096 : Shape := ⟨2, ![16384, 4096]⟩
abbrev S16384 : Shape := ⟨1, ![16384]⟩
abbrev S32x32 : Shape := ⟨2, ![32, 32]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S16384 : S_.BroadcastsInDim S16384 (![] : Fin 0 → Fin S16384.rank)
  reducesTo_S16384_S_d0 : S16384.ReducesTo [0] S_
  bcast_S_S32x32 : S_.BroadcastsInDim S32x32 (![] : Fin 0 → Fin S32x32.rank)
  reducesTo_S32x32_S_d0_1 : S32x32.ReducesTo [0, 1] S_

variable [Facts]

def fn_part1 {F : FTy → Type} [FloatOps F] (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  main_v18

def fn {F : FTy → Type} [FloatOps F] (main_arg0 : FVec F S8192x4096 .f32) (main_arg1 : FVec F S16384x4096 .f32) (main_arg2 : FVec F S16384 .f32) (main_arg3 : FVec F S32x32 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  let main_v14 : FVec F S32x32 .f32 := Host.absf main_arg3
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_v13 main_v16
-- ==== Kernel.lean ====
abbrev S8192x4096 : Shape := ⟨2, ![8192, 4096]⟩
abbrev S16384x4096 : Shape := ⟨2, ![16384, 4096]⟩
abbrev S16384 : Shape := ⟨1, ![16384]⟩
abbrev S32x32 : Shape := ⟨2, ![32, 32]⟩
abbrev S2097152x32 : Shape := ⟨2, ![2097152, 32]⟩
abbrev S_ : Shape := ⟨0, ![]⟩
abbrev S2097152 : Shape := ⟨1, ![2097152]⟩
abbrev S2097152x1 : Shape := ⟨2, ![2097152, 1]⟩
abbrev S1048576x32 : Shape := ⟨2, ![1048576, 32]⟩
abbrev S1048576 : Shape := ⟨1, ![1048576]⟩
abbrev S1048576x1 : Shape := ⟨2, ![1048576, 1]⟩
abbrev S1x16384 : Shape := ⟨2, ![1, 16384]⟩
abbrev S8192x16384 : Shape := ⟨2, ![8192, 16384]⟩
abbrev S1024x4096 : Shape := ⟨2, ![1024, 4096]⟩
abbrev S512x4096 : Shape := ⟨2, ![512, 4096]⟩
abbrev S1x512 : Shape := ⟨2, ![1, 512]⟩
abbrev S1024x512 : Shape := ⟨2, ![1024, 512]⟩

abbrev nBuf : Space → Nat
  | .hbm => 146
  | .vmem => 8
  | .smem => 0
  | _ => 0

abbrev hbmTy0_0 (i : Nat) : BufTy := match i % 128 with
  | 0 => ⟨S8192x4096, .f32⟩
  | 1 => ⟨S16384x4096, .f32⟩
  | 2 => ⟨S16384, .f32⟩
  | 3 => ⟨S32x32, .f32⟩
  | 4 => ⟨S2097152x32, .f32⟩
  | 5 => ⟨S2097152x32, .f32⟩
  | 6 => ⟨S16384x4096, .f32⟩
  | 7 => ⟨S2097152x32, .f32⟩
  | 8 => ⟨S2097152x32, .f32⟩
  | 9 => ⟨S_, .f32⟩
  | 10 => ⟨S2097152, .f32⟩
  | 11 => ⟨S2097152x1, .f32⟩
  | 12 => ⟨S_, .f32⟩
  | 13 => ⟨S2097152x1, .f32⟩
  | 14 => ⟨S2097152x1, .f32⟩
  | 15 => ⟨S2097152x1, .f32⟩
  | 16 => ⟨S_, .f32⟩
  | 17 => ⟨S_, .f32⟩
  | 18 => ⟨S2097152x1, .f32⟩
  | 19 => ⟨S2097152x1, .f32⟩
  | 20 => ⟨S2097152x1, .f32⟩
  | 21 => ⟨S_, .f32⟩
  | 22 => ⟨S2097152x1, .f32⟩
  | 23 => ⟨S2097152x1, .f32⟩
  | 24 => ⟨S_, .f32⟩
  | 25 => ⟨S2097152x1, .f32⟩
  | 26 => ⟨S2097152x1, .f32⟩
  | 27 => ⟨S2097152x1, .f32⟩
  | 28 => ⟨S_, .f32⟩
  | 29 => ⟨S2097152x1, .f32⟩
  | 30 => ⟨S2097152x1, .i1⟩
  | 31 => ⟨S_, .f32⟩
  | 32 => ⟨S_, .f32⟩
  | 33 => ⟨S2097152x1, .f32⟩
  | 34 => ⟨S2097152x1, .f32⟩
  | 35 => ⟨S2097152x32, .f32⟩
  | 36 => ⟨S2097152x32, .f32⟩
  | 37 => ⟨S2097152x32, .f32⟩
  | 38 => ⟨S2097152x32, .f32⟩
  | 39 => ⟨S_, .f32⟩
  | 40 => ⟨S2097152x32, .f32⟩
  | 41 => ⟨S2097152x32, .f32⟩
  | 42 => ⟨S_, .f32⟩
  | 43 => ⟨S2097152x32, .f32⟩
  | 44 => ⟨S2097152x32, .f32⟩
  | 45 => ⟨S2097152x32, .f32⟩
  | 46 => ⟨S_, .f32⟩
  | 47 => ⟨S_, .f32⟩
  | 48 => ⟨S2097152x32, .f32⟩
  | 49 => ⟨S2097152x32, .f32⟩
  | 50 => ⟨S2097152x32, .f32⟩
  | 51 => ⟨S_, .f32⟩
  | 52 => ⟨S_, .f32⟩
  | 53 => ⟨S_, .f32⟩
  | 54 => ⟨S2097152x32, .f32⟩
  | 55 => ⟨S2097152x32, .f32⟩
  | 56 => ⟨S_, .f32⟩
  | 57 => ⟨S2097152x32, .f32⟩
  | 58 => ⟨S2097152x32, .f32⟩
  | 59 => ⟨S_, .f32⟩
  | 60 => ⟨S2097152x32, .f32⟩
  | 61 => ⟨S2097152x32, .f32⟩
  | 62 => ⟨S_, .f32⟩
  | 63 => ⟨S2097152x32, .f32⟩
  | 64 => ⟨S2097152x32, .f32⟩
  | 65 => ⟨S2097152x32, .f32⟩
  | 66 => ⟨S2097152x32, .f32⟩
  | 67 => ⟨S2097152x32, .f32⟩
  | 68 => ⟨S2097152x32, .f32⟩
  | 69 => ⟨S2097152x32, .f32⟩
  | 70 => ⟨S2097152x32, .f32⟩
  | 71 => ⟨S2097152x32, .f32⟩
  | 72 => ⟨S16384x4096, .f32⟩
  | 73 => ⟨S1048576x32, .f32⟩
  | 74 => ⟨S1048576x32, .f32⟩
  | 75 => ⟨S8192x4096, .f32⟩
  | 76 => ⟨S1048576x32, .f32⟩
  | 77 => ⟨S1048576x32, .f32⟩
  | 78 => ⟨S_, .f32⟩
  | 79 => ⟨S1048576, .f32⟩
  | 80 => ⟨S1048576x1, .f32⟩
  | 81 => ⟨S_, .f32⟩
  | 82 => ⟨S1048576x1, .f32⟩
  | 83 => ⟨S1048576x1, .f32⟩
  | 84 => ⟨S1048576x1, .f32⟩
  | 85 => ⟨S_, .f32⟩
  | 86 => ⟨S_, .f32⟩
  | 87 => ⟨S1048576x1, .f32⟩
  | 88 => ⟨S1048576x1, .f32⟩
  | 89 => ⟨S1048576x1, .f32⟩
  | 90 => ⟨S_, .f32⟩
  | 91 => ⟨S1048576x1, .f32⟩
  | 92 => ⟨S1048576x1, .f32⟩
  | 93 => ⟨S_, .f32⟩
  | 94 => ⟨S1048576x1, .f32⟩
  | 95 => ⟨S1048576x1, .f32⟩
  | 96 => ⟨S1048576x1, .f32⟩
  | 97 => ⟨S_, .f32⟩
  | 98 => ⟨S1048576x1, .f32⟩
  | 99 => ⟨S1048576x1, .i1⟩
  | 100 => ⟨S_, .f32⟩
  | 101 => ⟨S_, .f32⟩
  | 102 => ⟨S1048576x1, .f32⟩
  | 103 => ⟨S1048576x1, .f32⟩
  | 104 => ⟨S1048576x32, .f32⟩
  | 105 => ⟨S1048576x32, .f32⟩
  | 106 => ⟨S1048576x32, .f32⟩
  | 107 => ⟨S1048576x32, .f32⟩
  | 108 => ⟨S_, .f32⟩
  | 109 => ⟨S1048576x32, .f32⟩
  | 110 => ⟨S1048576x32, .f32⟩
  | 111 => ⟨S_, .f32⟩
  | 112 => ⟨S1048576x32, .f32⟩
  | 113 => ⟨S1048576x32, .f32⟩
  | 114 => ⟨S1048576x32, .f32⟩
  | 115 => ⟨S_, .f32⟩
  | 116 => ⟨S_, .f32⟩
  | 117 => ⟨S1048576x32, .f32⟩
  | 118 => ⟨S1048576x32, .f32⟩
  | 119 => ⟨S1048576x32, .f32⟩
  | 120 => ⟨S_, .f32⟩
  | 121 => ⟨S_, .f32⟩
  | 122 => ⟨S_, .f32⟩
  | 123 => ⟨S1048576x32, .f32⟩
  | 124 => ⟨S1048576x32, .f32⟩
  | 125 => ⟨S_, .f32⟩
  | 126 => ⟨S1048576x32, .f32⟩
  | 127 => ⟨S1048576x32, .f32⟩
  | _ => ⟨S8192x4096, .f32⟩

abbrev hbmTy0_1 (i : Nat) : BufTy := match i % 128 with
  | 0 => ⟨S_, .f32⟩
  | 1 => ⟨S1048576x32, .f32⟩
  | 2 => ⟨S1048576x32, .f32⟩
  | 3 => ⟨S_, .f32⟩
  | 4 => ⟨S1048576x32, .f32⟩
  | 5 => ⟨S1048576x32, .f32⟩
  | 6 => ⟨S1048576x32, .f32⟩
  | 7 => ⟨S1048576x32, .f32⟩
  | 8 => ⟨S1048576x32, .f32⟩
  | 9 => ⟨S1048576x32, .f32⟩
  | 10 => ⟨S1048576x32, .f32⟩
  | 11 => ⟨S1048576x32, .f32⟩
  | 12 => ⟨S1048576x32, .f32⟩
  | 13 => ⟨S8192x4096, .f32⟩
  | 14 => ⟨S8192x4096, .bf16⟩
  | 15 => ⟨S16384x4096, .bf16⟩
  | 16 => ⟨S1x16384, .f32⟩
  | 17 => ⟨S8192x16384, .f32⟩
  | _ => ⟨S8192x4096, .f32⟩

abbrev hbmTy (i : Nat) : BufTy := match i / 128 with
  | 0 => hbmTy0_0 i
  | 1 => hbmTy0_1 i
  | _ => ⟨S8192x4096, .f32⟩

abbrev bufTy : (tb : Table) → Fin (tcTables nBuf tb) → BufTy
  | .hbm, ⟨i, _⟩ => hbmTy i
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_call0_v0 : Ref sig .tc := ⟨.hbm, 32, rfl⟩
abbrev main_call0_v1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_9 : Ref sig .tc := ⟨.hbm, 51, rfl⟩
abbrev main_cst_10 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_v35 : Ref sig .tc := ⟨.hbm, 58, rfl⟩
abbrev main_cst_11 : Ref sig .tc := ⟨.hbm, 59, rfl⟩
abbrev main_v36 : Ref sig .tc := ⟨.hbm, 60, rfl⟩
abbrev main_v37 : Ref sig .tc := ⟨.hbm, 61, rfl⟩
abbrev main_cst_12 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_13 : Ref sig .tc := ⟨.hbm, 78, rfl⟩
abbrev main_v53 : Ref sig .tc := ⟨.hbm, 79, rfl⟩
abbrev main_v54 : Ref sig .tc := ⟨.hbm, 80, rfl⟩
abbrev main_cst_14 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_15 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_16 : Ref sig .tc := ⟨.hbm, 90, rfl⟩
abbrev main_v62 : Ref sig .tc := ⟨.hbm, 91, rfl⟩
abbrev main_v63 : Ref sig .tc := ⟨.hbm, 92, rfl⟩
abbrev main_cst_17 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_18 : Ref sig .tc := ⟨.hbm, 97, rfl⟩
abbrev main_v67 : Ref sig .tc := ⟨.hbm, 98, rfl⟩
abbrev main_v68 : Ref sig .tc := ⟨.hbm, 99, rfl⟩
abbrev main_cst_19 : Ref sig .tc := ⟨.hbm, 100, rfl⟩
abbrev main_call3_v0 : Ref sig .tc := ⟨.hbm, 101, rfl⟩
abbrev main_call3_v1 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_20 : Ref sig .tc := ⟨.hbm, 108, rfl⟩
abbrev main_v74 : Ref sig .tc := ⟨.hbm, 109, rfl⟩
abbrev main_v75 : Ref sig .tc := ⟨.hbm, 110, rfl⟩
abbrev main_cst_21 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_22 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_cst_23 : Ref sig .tc := ⟨.hbm, 120, rfl⟩
abbrev main_cst_24 : Ref sig .tc := ⟨.hbm, 121, rfl⟩
abbrev main_call4_v0 : Ref sig .tc := ⟨.hbm, 122, rfl⟩
abbrev main_call4_v1 : Ref sig .tc := ⟨.hbm, 123, rfl⟩
abbrev main_call4_v2 : Ref sig .tc := ⟨.hbm, 124, rfl⟩
abbrev main_call4_v3 : Ref sig .tc := ⟨.hbm, 125, rfl⟩
abbrev main_call4_v4 : Ref sig .tc := ⟨.hbm, 126, rfl⟩
abbrev main_v83 : Ref sig .tc := ⟨.hbm, 127, rfl⟩
abbrev main_cst_25 : Ref sig .tc := ⟨.hbm, 128, rfl⟩
abbrev main_v84 : Ref sig .tc := ⟨.hbm, 129, rfl⟩
abbrev main_v85 : Ref sig .tc := ⟨.hbm, 130, rfl⟩
abbrev main_cst_26 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S16384x4096_S2097152x32 : S16384x4096.ShapeCasts S2097152x32
  shapeCasts_S2097152x32_S16384x4096 : S2097152x32.ShapeCasts S16384x4096
  reducesTo_S2097152x32_S2097152_d1 : S2097152x32.ReducesTo [1] S2097152
  h_S_ : 0 < S_.numel
  bcast_S2097152_S2097152x1_0 : S2097152.BroadcastsInDim S2097152x1 (![0] : Fin 1 → Fin S2097152x1.rank)
  bcast_S_S2097152x1 : S_.BroadcastsInDim S2097152x1 (![] : Fin 0 → Fin S2097152x1.rank)
  bcast_S2097152x1_S2097152x32_0_1 : S2097152x1.BroadcastsInDim S2097152x32 (![0, 1] : Fin 2 → Fin S2097152x32.rank)
  bcast_S_S2097152x32 : S_.BroadcastsInDim S2097152x32 (![] : Fin 0 → Fin S2097152x32.rank)
  shapeCasts_S8192x4096_S1048576x32 : S8192x4096.ShapeCasts S1048576x32
  shapeCasts_S1048576x32_S8192x4096 : S1048576x32.ShapeCasts S8192x4096
  reducesTo_S1048576x32_S1048576_d1 : S1048576x32.ReducesTo [1] S1048576
  bcast_S1048576_S1048576x1_0 : S1048576.BroadcastsInDim S1048576x1 (![0] : Fin 1 → Fin S1048576x1.rank)
  bcast_S_S1048576x1 : S_.BroadcastsInDim S1048576x1 (![] : Fin 0 → Fin S1048576x1.rank)
  bcast_S1048576x1_S1048576x32_0_1 : S1048576x1.BroadcastsInDim S1048576x32 (![0, 1] : Fin 2 → Fin S1048576x32.rank)
  bcast_S_S1048576x32 : S_.BroadcastsInDim S1048576x32 (![] : Fin 0 → Fin S1048576x32.rank)
  bitsLt_bf16_f32 : FTy.bits .bf16 < FTy.bits .f32
  shapeCasts_S16384_S1x16384 : S16384.ShapeCasts S1x16384
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S2097152x32_S32x32_S2097152x32_1_0_0_1_n_n_wf : DotDims.WF S2097152x32 S32x32 S2097152x32 [1] [0] [0] [1] [] []
  dot_S1048576x32_S32x32_S1048576x32_1_0_0_1_n_n_wf : DotDims.WF S1048576x32 S32x32 S1048576x32 [1] [0] [0] [1] [] []
  dot_S1024x4096_S512x4096_S1024x512_1_1_0_0_n_n_wf : DotDims.WF S1024x4096 S512x4096 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S16384x4096.size a
  hwx0_1 : ∀ i : grid0.Coords, EltTy.bits .bf16 = 32 ∨ (Rect.block (s := S16384x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x16384.size a
  hwx0_2 : ∀ i : grid0.Coords, EltTy.bits .f32 = 32 ∨ (Rect.block (s := S1x16384) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x16384.size a
  hwx0_3 : ∀ i : grid0.Coords, EltTy.bits .f32 = 32 ∨ (Rect.block (s := S8192x16384) S1024x512.size (cc0_transform_3 i) (hinb0_3 i)).WholeWords (EltTy.packing .f32)

variable [Facts₀]

def dot_S2097152x32_S32x32_S2097152x32_1_0_0_1_n_n : DotDims S2097152x32 S32x32 S2097152x32 where
  lhsContracting := [1]
  rhsContracting := [0]
  lhsNonContracting := [0]
  rhsNonContracting := [1]
  lhsBatch := []
  rhsBatch := []
  wf := dot_S2097152x32_S32x32_S2097152x32_1_0_0_1_n_n_wf
def dot_S1048576x32_S32x32_S1048576x32_1_0_0_1_n_n : DotDims S1048576x32 S32x32 S1048576x32 where
  lhsContracting := [1]
  rhsContracting := [0]
  lhsNonContracting := [0]
  rhsNonContracting := [1]
  lhsBatch := []
  rhsBatch := []
  wf := dot_S1048576x32_S32x32_S1048576x32_1_0_0_1_n_n_wf
def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf

abbrev win0_0 : Pipeline.Window sig grid0 :=
  Pipeline.Window.ofSpec (Memref.whole main_v96) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v97) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v98) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v99) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S16384x4096 : Shape := ⟨2, ![16384, 4096]⟩
abbrev S16384 : Shape := ⟨1, ![16384]⟩
abbrev S32x32 : Shape := ⟨2, ![32, 32]⟩
abbrev S2097152x32 : Shape := ⟨2, ![2097152, 32]⟩
abbrev S_ : Shape := ⟨0, ![]⟩
abbrev S2097152 : Shape := ⟨1, ![2097152]⟩
abbrev S2097152x1 : Shape := ⟨2, ![2097152, 1]⟩
abbrev S1048576x32 : Shape := ⟨2, ![1048576, 32]⟩
abbrev S1048576 : Shape := ⟨1, ![1048576]⟩
abbrev S1048576x1 : Shape := ⟨2, ![1048576, 1]⟩
abbrev S4096x16384 : Shape := ⟨2, ![4096, 16384]⟩
abbrev S8192x16384 : Shape := ⟨2, ![8192, 16384]⟩
abbrev S1x16384 : Shape := ⟨2, ![1, 16384]⟩

abbrev nBuf : Space → Nat
  | .hbm => 147
  | .vmem => 0
  | .smem => 0
  | _ => 0

abbrev hbmTy0_0 (i : Nat) : BufTy := match i % 128 with
  | 0 => ⟨S8192x4096, .f32⟩
  | 1 => ⟨S16384x4096, .f32⟩
  | 2 => ⟨S16384, .f32⟩
  | 3 => ⟨S32x32, .f32⟩
  | 4 => ⟨S2097152x32, .f32⟩
  | 5 => ⟨S2097152x32, .f32⟩
  | 6 => ⟨S16384x4096, .f32⟩
  | 7 => ⟨S2097152x32, .f32⟩
  | 8 => ⟨S2097152x32, .f32⟩
  | 9 => ⟨S_, .f32⟩
  | 10 => ⟨S2097152, .f32⟩
  | 11 => ⟨S2097152x1, .f32⟩
  | 12 => ⟨S_, .f32⟩
  | 13 => ⟨S2097152x1, .f32⟩
  | 14 => ⟨S2097152x1, .f32⟩
  | 15 => ⟨S2097152x1, .f32⟩
  | 16 => ⟨S_, .f32⟩
  | 17 => ⟨S_, .f32⟩
  | 18 => ⟨S2097152x1, .f32⟩
  | 19 => ⟨S2097152x1, .f32⟩
  | 20 => ⟨S2097152x1, .f32⟩
  | 21 => ⟨S_, .f32⟩
  | 22 => ⟨S2097152x1, .f32⟩
  | 23 => ⟨S2097152x1, .f32⟩
  | 24 => ⟨S_, .f32⟩
  | 25 => ⟨S2097152x1, .f32⟩
  | 26 => ⟨S2097152x1, .f32⟩
  | 27 => ⟨S2097152x1, .f32⟩
  | 28 => ⟨S_, .f32⟩
  | 29 => ⟨S2097152x1, .f32⟩
  | 30 => ⟨S2097152x1, .i1⟩
  | 31 => ⟨S_, .f32⟩
  | 32 => ⟨S_, .f32⟩
  | 33 => ⟨S2097152x1, .f32⟩
  | 34 => ⟨S2097152x1, .f32⟩
  | 35 => ⟨S2097152x32, .f32⟩
  | 36 => ⟨S2097152x32, .f32⟩
  | 37 => ⟨S2097152x32, .f32⟩
  | 38 => ⟨S2097152x32, .f32⟩
  | 39 => ⟨S_, .f32⟩
  | 40 => ⟨S2097152x32, .f32⟩
  | 41 => ⟨S2097152x32, .f32⟩
  | 42 => ⟨S_, .f32⟩
  | 43 => ⟨S2097152x32, .f32⟩
  | 44 => ⟨S2097152x32, .f32⟩
  | 45 => ⟨S2097152x32, .f32⟩
  | 46 => ⟨S_, .f32⟩
  | 47 => ⟨S_, .f32⟩
  | 48 => ⟨S2097152x32, .f32⟩
  | 49 => ⟨S2097152x32, .f32⟩
  | 50 => ⟨S2097152x32, .f32⟩
  | 51 => ⟨S_, .f32⟩
  | 52 => ⟨S_, .f32⟩
  | 53 => ⟨S_, .f32⟩
  | 54 => ⟨S2097152x32, .f32⟩
  | 55 => ⟨S2097152x32, .f32⟩
  | 56 => ⟨S_, .f32⟩
  | 57 => ⟨S2097152x32, .f32⟩
  | 58 => ⟨S2097152x32, .f32⟩
  | 59 => ⟨S_, .f32⟩
  | 60 => ⟨S2097152x32, .f32⟩
  | 61 => ⟨S2097152x32, .f32⟩
  | 62 => ⟨S_, .f32⟩
  | 63 => ⟨S2097152x32, .f32⟩
  | 64 => ⟨S2097152x32, .f32⟩
  | 65 => ⟨S2097152x32, .f32⟩
  | 66 => ⟨S2097152x32, .f32⟩
  | 67 => ⟨S2097152x32, .f32⟩
  | 68 => ⟨S2097152x32, .f32⟩
  | 69 => ⟨S2097152x32, .f32⟩
  | 70 => ⟨S2097152x32, .f32⟩
  | 71 => ⟨S2097152x32, .f32⟩
  | 72 => ⟨S16384x4096, .f32⟩
  | 73 => ⟨S1048576x32, .f32⟩
  | 74 => ⟨S1048576x32, .f32⟩
  | 75 => ⟨S8192x4096, .f32⟩
  | 76 => ⟨S1048576x32, .f32⟩
  | 77 => ⟨S1048576x32, .f32⟩
  | 78 => ⟨S_, .f32⟩
  | 79 => ⟨S1048576, .f32⟩
  | 80 => ⟨S1048576x1, .f32⟩
  | 81 => ⟨S_, .f32⟩
  | 82 => ⟨S1048576x1, .f32⟩
  | 83 => ⟨S1048576x1, .f32⟩
  | 84 => ⟨S1048576x1, .f32⟩
  | 85 => ⟨S_, .f32⟩
  | 86 => ⟨S_, .f32⟩
  | 87 => ⟨S1048576x1, .f32⟩
  | 88 => ⟨S1048576x1, .f32⟩
  | 89 => ⟨S1048576x1, .f32⟩
  | 90 => ⟨S_, .f32⟩
  | 91 => ⟨S1048576x1, .f32⟩
  | 92 => ⟨S1048576x1, .f32⟩
  | 93 => ⟨S_, .f32⟩
  | 94 => ⟨S1048576x1, .f32⟩
  | 95 => ⟨S1048576x1, .f32⟩
  | 96 => ⟨S1048576x1, .f32⟩
  | 97 => ⟨S_, .f32⟩
  | 98 => ⟨S1048576x1, .f32⟩
  | 99 => ⟨S1048576x1, .i1⟩
  | 100 => ⟨S_, .f32⟩
  | 101 => ⟨S_, .f32⟩
  | 102 => ⟨S1048576x1, .f32⟩
  | 103 => ⟨S1048576x1, .f32⟩
  | 104 => ⟨S1048576x32, .f32⟩
  | 105 => ⟨S1048576x32, .f32⟩
  | 106 => ⟨S1048576x32, .f32⟩
  | 107 => ⟨S1048576x32, .f32⟩
  | 108 => ⟨S_, .f32⟩
  | 109 => ⟨S1048576x32, .f32⟩
  | 110 => ⟨S1048576x32, .f32⟩
  | 111 => ⟨S_, .f32⟩
  | 112 => ⟨S1048576x32, .f32⟩
  | 113 => ⟨S1048576x32, .f32⟩
  | 114 => ⟨S1048576x32, .f32⟩
  | 115 => ⟨S_, .f32⟩
  | 116 => ⟨S_, .f32⟩
  | 117 => ⟨S1048576x32, .f32⟩
  | 118 => ⟨S1048576x32, .f32⟩
  | 119 => ⟨S1048576x32, .f32⟩
  | 120 => ⟨S_, .f32⟩
  | 121 => ⟨S_, .f32⟩
  | 122 => ⟨S_, .f32⟩
  | 123 => ⟨S1048576x32, .f32⟩
  | 124 => ⟨S1048576x32, .f32⟩
  | 125 => ⟨S_, .f32⟩
  | 126 => ⟨S1048576x32, .f32⟩
  | 127 => ⟨S1048576x32, .f32⟩
  | _ => ⟨S8192x4096, .f32⟩

abbrev hbmTy0_1 (i : Nat) : BufTy := match i % 128 with
  | 0 => ⟨S_, .f32⟩
  | 1 => ⟨S1048576x32, .f32⟩
  | 2 => ⟨S1048576x32, .f32⟩
  | 3 => ⟨S_, .f32⟩
  | 4 => ⟨S1048576x32, .f32⟩
  | 5 => ⟨S1048576x32, .f32⟩
  | 6 => ⟨S1048576x32, .f32⟩
  | 7 => ⟨S1048576x32, .f32⟩
  | 8 => ⟨S1048576x32, .f32⟩
  | 9 => ⟨S1048576x32, .f32⟩
  | 10 => ⟨S1048576x32, .f32⟩
  | 11 => ⟨S1048576x32, .f32⟩
  | 12 => ⟨S1048576x32, .f32⟩
  | 13 => ⟨S8192x4096, .f32⟩
  | 14 => ⟨S4096x16384, .f32⟩
  | 15 => ⟨S8192x16384, .f32⟩
  | 16 => ⟨S1x16384, .f32⟩
  | 17 => ⟨S8192x16384, .f32⟩
  | 18 => ⟨S8192x16384, .f32⟩
  | _ => ⟨S8192x4096, .f32⟩

abbrev hbmTy (i : Nat) : BufTy := match i / 128 with
  | 0 => hbmTy0_0 i
  | 1 => hbmTy0_1 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_call0_v0 : Ref sig .tc := ⟨.hbm, 32, rfl⟩
abbrev main_call0_v1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_9 : Ref sig .tc := ⟨.hbm, 51, rfl⟩
abbrev main_cst_10 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_v35 : Ref sig .tc := ⟨.hbm, 58, rfl⟩
abbrev main_cst_11 : Ref sig .tc := ⟨.hbm, 59, rfl⟩
abbrev main_v36 : Ref sig .tc := ⟨.hbm, 60, rfl⟩
abbrev main_v37 : Ref sig .tc := ⟨.hbm, 61, rfl⟩
abbrev main_cst_12 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_13 : Ref sig .tc := ⟨.hbm, 78, rfl⟩
abbrev main_v53 : Ref sig .tc := ⟨.hbm, 79, rfl⟩
abbrev main_v54 : Ref sig .tc := ⟨.hbm, 80, rfl⟩
abbrev main_cst_14 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_15 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_16 : Ref sig .tc := ⟨.hbm, 90, rfl⟩
abbrev main_v62 : Ref sig .tc := ⟨.hbm, 91, rfl⟩
abbrev main_v63 : Ref sig .tc := ⟨.hbm, 92, rfl⟩
abbrev main_cst_17 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_18 : Ref sig .tc := ⟨.hbm, 97, rfl⟩
abbrev main_v67 : Ref sig .tc := ⟨.hbm, 98, rfl⟩
abbrev main_v68 : Ref sig .tc := ⟨.hbm, 99, rfl⟩
abbrev main_cst_19 : Ref sig .tc := ⟨.hbm, 100, rfl⟩
abbrev main_call3_v0 : Ref sig .tc := ⟨.hbm, 101, rfl⟩
abbrev main_call3_v1 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_20 : Ref sig .tc := ⟨.hbm, 108, rfl⟩
abbrev main_v74 : Ref sig .tc := ⟨.hbm, 109, rfl⟩
abbrev main_v75 : Ref sig .tc := ⟨.hbm, 110, rfl⟩
abbrev main_cst_21 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_22 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_cst_23 : Ref sig .tc := ⟨.hbm, 120, rfl⟩
abbrev main_cst_24 : Ref sig .tc := ⟨.hbm, 121, rfl⟩
abbrev main_call4_v0 : Ref sig .tc := ⟨.hbm, 122, rfl⟩
abbrev main_call4_v1 : Ref sig .tc := ⟨.hbm, 123, rfl⟩
abbrev main_call4_v2 : Ref sig .tc := ⟨.hbm, 124, rfl⟩
abbrev main_call4_v3 : Ref sig .tc := ⟨.hbm, 125, rfl⟩
abbrev main_call4_v4 : Ref sig .tc := ⟨.hbm, 126, rfl⟩
abbrev main_v83 : Ref sig .tc := ⟨.hbm, 127, rfl⟩
abbrev main_cst_25 : Ref sig .tc := ⟨.hbm, 128, rfl⟩
abbrev main_v84 : Ref sig .tc := ⟨.hbm, 129, rfl⟩
abbrev main_v85 : Ref sig .tc := ⟨.hbm, 130, rfl⟩
abbrev main_cst_26 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩

abbrev nD : Nat := 1
abbrev τ : Topo := Topo.v7x

variable {F : FTy → Type} [FloatOps F]

class Facts₀ : Prop where
  shapeCasts_S16384x4096_S2097152x32 : S16384x4096.ShapeCasts S2097152x32
  shapeCasts_S2097152x32_S16384x4096 : S2097152x32.ShapeCasts S16384x4096
  reducesTo_S2097152x32_S2097152_d1 : S2097152x32.ReducesTo [1] S2097152
  h_S_ : 0 < S_.numel
  bcast_S2097152_S2097152x1_0 : S2097152.BroadcastsInDim S2097152x1 (![0] : Fin 1 → Fin S2097152x1.rank)
  bcast_S_S2097152x1 : S_.BroadcastsInDim S2097152x1 (![] : Fin 0 → Fin S2097152x1.rank)
  bcast_S2097152x1_S2097152x32_0_1 : S2097152x1.BroadcastsInDim S2097152x32 (![0, 1] : Fin 2 → Fin S2097152x32.rank)
  bcast_S_S2097152x32 : S_.BroadcastsInDim S2097152x32 (![] : Fin 0 → Fin S2097152x32.rank)
  shapeCasts_S8192x4096_S1048576x32 : S8192x4096.ShapeCasts S1048576x32
  shapeCasts_S1048576x32_S8192x4096 : S1048576x32.ShapeCasts S8192x4096
  reducesTo_S1048576x32_S1048576_d1 : S1048576x32.ReducesTo [1] S1048576
  bcast_S1048576_S1048576x1_0 : S1048576.BroadcastsInDim S1048576x1 (![0] : Fin 1 → Fin S1048576x1.rank)
  bcast_S_S1048576x1 : S_.BroadcastsInDim S1048576x1 (![] : Fin 0 → Fin S1048576x1.rank)
  bcast_S1048576x1_S1048576x32_0_1 : S1048576x1.BroadcastsInDim S1048576x32 (![0, 1] : Fin 2 → Fin S1048576x32.rank)
  bcast_S_S1048576x32 : S_.BroadcastsInDim S1048576x32 (![] : Fin 0 → Fin S1048576x32.rank)
  transposes_S16384x4096_S4096x16384_1_0 : S16384x4096.Transposes [1, 0] S4096x16384
  bcast_S16384_S1x16384_1 : S16384.BroadcastsInDim S1x16384 (![1] : Fin 1 → Fin S1x16384.rank)
  bcast_S1x16384_S8192x16384_0_1 : S1x16384.BroadcastsInDim S8192x16384 (![0, 1] : Fin 2 → Fin S8192x16384.rank)
  dot_S2097152x32_S32x32_S2097152x32_1_0_0_1_n_n_wf : DotDims.WF S2097152x32 S32x32 S2097152x32 [1] [0] [0] [1] [] []
  dot_S1048576x32_S32x32_S1048576x32_1_0_0_1_n_n_wf : DotDims.WF S1048576x32 S32x32 S1048576x32 [1] [0] [0] [1] [] []
  dot_S8192x4096_S4096x16384_S8192x16384_1_0_0_1_n_n_wf : DotDims.WF S8192x4096 S4096x16384 S8192x16384 [1] [0] [0] [1] [] []

variable [Facts₀]

def dot_S2097152x32_S32x32_S2097152x32_1_0_0_1_n_n : DotDims S2097152x32 S32x32 S2097152x32 where
  lhsContracting := [1]
  rhsContracting := [0]
  lhsNonContracting := [0]
  rhsNonContracting := [1]
  lhsBatch := []
  rhsBatch := []
  wf := dot_S2097152x32_S32x32_S2097152x32_1_0_0_1_n_n_wf
def dot_S1048576x32_S32x32_S1048576x32_1_0_0_1_n_n : DotDims S1048576x32 S32x32 S1048576x32 where
  lhsContracting := [1]
  rhsContracting := [0]
  lhsNonContracting := [0]
  rhsNonContracting := [1]
  lhsBatch := []
  rhsBatch := []
  wf := dot_S1048576x32_S32x32_S1048576x32_1_0_0_1_n_n_wf
def dot_S8192x4096_S4096x16384_S8192x16384_1_0_0_1_n_n : DotDims S8192x4096 S4096x16384 S8192x16384 where
  lhsContracting := [1]
  rhsContracting := [0]
  lhsNonContracting := [0]
  rhsNonContracting := [1]
  lhsBatch := []
  rhsBatch := []
  wf := dot_S8192x4096_S4096x16384_S8192x16384_1_0_0_1_n_n_wf

class Facts : Prop extends Facts₀ where

variable [Facts]
-- ==== Proof.LibMatmulNT.lean ====
/-
  A matrix product whose right operand is contracted on its LAST axis, read at an index, over the extended reals.

  For dimension numbers that contract the left operand's axis 1 with the right operand's axis 1, keep axis 0 of each,
  and have no batch axes — `[M, K] · [N, K] → [M, N]`, the product with the transposed right operand in which no
  transpose is ever formed — entry `(p, q)` of the product accumulated into the zero matrix is
  `∑ₖ lhs (p, k) * rhs (q, k)`. The contraction index, a multi-index with one axis, is its one coordinate; at result
  index `(p, q)` and contraction coordinate `k` the left operand is read at `(p, k)` and the right one at `(q, k)`.
-/
import Idealize.ShloMosaic.Lib.ValueIdx
import Idealize.ShloMosaic.PureOps.Ideal.Laws

noncomputable section

open scoped BigOperators

namespace Idealize.ShloMosaic.MatmulNT

open Idealize.ShloMosaic Idealize.ShloMosaic.ValueIdx

/-- A coordinate of an index does not depend on how its axis number is spelt. -/
theorem coord_congr {S : Shape} (j : S.Idx) {a b : Nat} (ha : a < S.rank) (hb : b < S.rank) (h : a = b) :
    (j ⟨a, ha⟩).val = (j ⟨b, hb⟩).val := by subst h; rfl

variable {M K N : Nat} (d : DotDims ⟨2, ![M, K]⟩ ⟨2, ![N, K]⟩ ⟨2, ![M, N]⟩)
  (hlc : d.lhsContracting = [1]) (hrc : d.rhsContracting = [1])
  (hln : d.lhsNonContracting = [0]) (hrn : d.rhsNonContracting = [0])
  (hlb : d.lhsBatch = []) (hrb : d.rhsBatch = [])

include hln hlb in
/-- The left operand's kept axis is the result's axis 0: its coordinate there is the result's row. -/
theorem lhsIdx_kept (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  exact coord_congr j _ _ (by simp [hlb, hln])

include hln hrn hlb hrb in
/-- The right operand's kept axis is the result's axis 1 (it comes after the left operand's one kept axis): its
    coordinate there is the result's column. -/
theorem rhsIdx_kept (j : (⟨2, ![M, N]⟩ : Shape).Idx) (k : d.contr.Idx) : (d.rhsIdx j k 0).val = (j 1).val := by
  have hb : (0 : Fin (⟨2, ![N, K]⟩ : Shape).rank) ∉ d.rhsBatch := by rw [hrb]; exact List.not_mem_nil
  have hn : (0 : Fin (⟨2, ![N, K]⟩ : Shape).rank) ∈ d.rhsNonContracting := by rw [hrn]; exact List.mem_singleton.mpr rfl
  unfold DotDims.rhsIdx
  rw [dif_neg hb, dif_pos hn]
  simp only [Fin.val_cast]
  exact coord_congr j _ _ (by simp [hlb, hln, hrn])

include hlc in
/-- One axis is contracted, -/
theorem contr_rank : d.contr.rank = 1 := by rw [d.rank_contr, hlc]; rfl

include hlc in
/-- and its extent is the operands' shared inner extent. -/
theorem contr_size (h0 : 0 < d.contr.rank) : d.contr.size ⟨0, h0⟩ = K := by
  have h1 : 0 < d.lhsContracting.length := by rw [hlc]; exact Nat.one_pos
  refine (d.size_contr 0 h1).trans ?_
  have e : d.lhsContracting[0] = (1 : Fin (⟨2, ![M, K]⟩ : Shape).rank) := by simp [hlc]
  rw [e]
  rfl

include hlc hrc hln hrn hlb hrb in
/-- ENTRY `(p, q)` OF THE PRODUCT WITH THE TRANSPOSED RIGHT OPERAND, INTO THE ZERO MATRIX: `∑ₖ lhs (p, k) * rhs (q, k)`. -/
theorem matmul_zero_apply {φ₁ φ₂ : FTy} (prec : Option ContractPrecision)
    (lhs : FVec Ideal ⟨2, ![M, K]⟩ φ₁) (rhs : FVec Ideal ⟨2, ![N, K]⟩ φ₂) (p : Fin M) (q : Fin N) :
    FloatOps.matmul d prec lhs rhs (constant ⟨2, ![M, N]⟩ .f32 0x00000000#32) (ix2 p q)
      = ∑ k : Fin K, lhs (ix2 p k) * rhs (ix2 q k) := by
  rw [Ideal.matmul_constant_zero_apply]
  have hr : d.contr.rank = 1 := contr_rank d hlc
  have hs : d.contr.size ⟨0, by omega⟩ = K := contr_size d hlc _
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhsIdx_kept d hln hlb (ix2 p q) _
    | ⟨1, _⟩ => exact (d.lhsIdx_val_of_single (cl := 1) hlc (ix2 p q) _).trans hk)
  have er : d.rhsIdx (ix2 p q) ((contrEquiv1 d K hr hs).symm k) = ix2 q k := funext fun a => Fin.ext (by
    match a with
    | ⟨0, _⟩ => exact rhsIdx_kept d hln hrn hlb hrb (ix2 p q) _
    | ⟨1, _⟩ => exact (d.rhsIdx_val_of_single (cr := 1) hrc (ix2 p q) _).trans hk)
  rw [el, er]

end Idealize.ShloMosaic.MatmulNT
-- ==== Proof.Payload.lean ====
/-
  What the kernel body stores, read at one entry.

  At a grid point the body holds a block of 1024 rows of the activations, a block of 512 rows of the weights (all 4096
  columns of each) and the 512 bias entries of those weight rows, laid out as one row. It multiplies the first block by
  the second with the second's rows as the result's columns, accumulating into zero, and adds the bias row to every
  row of the product. So entry (p, q) of the stored block is

      ∑ₖ x (p, k) · w (q, k)  +  b (0, q).

  The two casts of a block to its own shape are the identity; the product into the zero matrix is the plain sum over
  the contracted axis; the bias row broadcast over 1024 rows reads its one row.
-/
import proofs.«116575_j42734924595881_1_alg».proof.Proof.Gen.KernelIdeal.Skeleton
import proofs.«116575_j42734924595881_1_alg».proof.Proof.LibMatmulNT
import Idealize.ShloMosaic.Lib.ValueLayout
import Idealize.ShloMosaic.Lib.Pipeline.Value

noncomputable section

open scoped BigOperators

namespace Cert.KernelIdeal.Body

open Cert.KernelIdeal Cert.KernelIdeal.Gen Idealize.ShloMosaic Idealize.ShloMosaic.ValueIdx

/-- Entry (p, q) of the block the body stores: row p of the activation block against row q of the weight block, plus
    the bias block's entry q. -/
theorem stored_apply (x : FVec Ideal S1024x4096 .bf16) (w : FVec Ideal S512x4096 .bf16) (b : FVec Ideal S1x512 .f32)
    (p : Fin 1024) (q : Fin 512) :
    k0_pay1 (F := Ideal) x w b (ix2 p q) = (∑ k : Fin 4096, x (ix2 p k) * w (ix2 q k)) + b (ix2 (0 : Fin 1) q) := by
  unfold k0_pay1
  refine congrArg₂ (· + ·) ?_ ?_
  · refine (MatmulNT.matmul_zero_apply dot_S1024x4096_S512x4096_S1024x512_1_1_0_0_n_n rfl rfl rfl rfl rfl rfl none _ _ p q).trans ?_
    rw [shapeCast_self, shapeCast_self]
  · refine (broadcastTo_1b_ab_apply _ broadcasts_S1x512_S1024x512 p q).trans ?_
    rw [shapeCast_self]

end Cert.KernelIdeal.Body

end
-- ==== Proof.Spec.lean ====
/-
  The linear layer both programs compute, on the extended reals.

  With activations X of 8192 rows, weights W of 16384 rows, both of 4096 columns, and a bias b of 16384 entries,
  entry (p, q) of the result is row p of X against row q of W, summed over the 4096 shared columns, plus b at q:

      out (p, q) = ∑ₖ X (p, k) · W (q, k)  +  b q.

  This is X · Wᵀ + b without a transpose ever being formed. The sum runs over k = 0 … 4095 in that order of the
  index type; both programs are read as this same sum with the same summands, so no rearrangement of a sum, and
  therefore no finiteness of the entries, is used anywhere.

  The float formats of X and W are parameters: on the extended reals every format is the same set of values and a
  change of format is the identity (`linear_truncf`).
-/
import Idealize.ShloMosaic.Lib.ValueIdx
import Idealize.ShloMosaic.Lib.ValueLayout

noncomputable section

open scoped BigOperators

namespace Cert.QuantLinear

open Idealize.ShloMosaic Idealize.ShloMosaic.ValueIdx

/-- Entry (p, q) of X · Wᵀ + b: row p of X against row q of W over the shared columns, plus the bias of column q. -/
def entry {φ₁ φ₂ : FTy} (X : FVec Ideal ⟨2, ![8192, 4096]⟩ φ₁) (W : FVec Ideal ⟨2, ![16384, 4096]⟩ φ₂)
    (b : Fin 16384 → EReal) (p : Fin 8192) (q : Fin 16384) : EReal :=
  (∑ k : Fin 4096, X (ix2 p k) * W (ix2 q k)) + b q

/-- The whole result array, entry by entry. -/
def linear {φ₁ φ₂ : FTy} (X : FVec Ideal ⟨2, ![8192, 4096]⟩ φ₁) (W : FVec Ideal ⟨2, ![16384, 4096]⟩ φ₂)
    (b : Fin 16384 → EReal) : FVec Ideal ⟨2, ![8192, 16384]⟩ .f32 :=
  fun i => entry X W b (i 0) (i 1)

/-- The array at the index with coordinates (p, q) is entry (p, q). -/
theorem linear_apply {φ₁ φ₂ : FTy} (X : FVec Ideal ⟨2, ![8192, 4096]⟩ φ₁) (W : FVec Ideal ⟨2, ![16384, 4096]⟩ φ₂)
    (b : Fin 16384 → EReal) (p : Fin 8192) (q : Fin 16384) : linear X W b (ix2 p q) = entry X W b p q := rfl

/-- Rounding X and W to narrower formats first changes nothing: on the extended reals a narrowing is the identity. -/
theorem linear_truncf {φ₁ φ₂ ψ₁ ψ₂ : FTy} (X : FVec Ideal ⟨2, ![8192, 4096]⟩ φ₁) (W : FVec Ideal ⟨2, ![16384, 4096]⟩ φ₂)
    (h₁ : ψ₁.bits < φ₁.bits) (h₂ : ψ₂.bits < φ₂.bits) (b : Fin 16384 → EReal) :
    linear (truncf ψ₁ X h₁) (truncf ψ₂ W h₂) b = linear X W b := rfl

/-- Operands that ARE a narrowing of X, a narrowing of W and the bias laid out as one row give the layer of X, W and the
    bias: the narrowings are the identity, and entry s of the one row is the bias at s. -/
theorem linear_of_operands {φ₁ φ₂ ψ₁ ψ₂ : FTy}
    (A : FVec Ideal ⟨2, ![8192, 4096]⟩ ψ₁) (B : FVec Ideal ⟨2, ![16384, 4096]⟩ ψ₂) (C : FVec Ideal ⟨2, ![1, 16384]⟩ .f32)
    (X : FVec Ideal ⟨2, ![8192, 4096]⟩ φ₁) (W : FVec Ideal ⟨2, ![16384, 4096]⟩ φ₂) (b : FVec Ideal ⟨1, ![16384]⟩ .f32)
    (h₁ : ψ₁.bits < φ₁.bits) (h₂ : ψ₂.bits < φ₂.bits) (hc : (⟨1, ![16384]⟩ : Shape).ShapeCasts ⟨2, ![1, 16384]⟩)
    (hA : A = truncf ψ₁ X h₁) (hB : B = truncf ψ₂ W h₂) (hC : C = shapeCast ⟨2, ![1, 16384]⟩ b hc) :
    linear A B (fun s => C (ix2 (0 : Fin 1) s)) = linear X W (fun s => b (ix1 s)) := by
  subst hA hB hC
  rw [linear_truncf]
  refine congrArg _ (funext fun s => ?_)
  exact shapeCast_a_1a_apply b hc (0 : Fin 1) s

end Cert.QuantLinear

end
-- ==== Proof.Blocks.lean ====
/-
  From the blocks the grid points write to the whole result array.

  The grid has 8 × 32 points; point t is (t / 32, t % 32) = (i, j). At that point the body holds rows 1024·i … of the
  region's first operand (all 4096 columns), rows 512·j … of its second (all 4096 columns) and entries 512·j … of the
  one-row third operand, and what it stores is written back as block (i, j) — 1024 rows by 512 columns — of the result.
  Entry (p, q) of that block is the array entry (r, s) with r = 1024·i + p and s = 512·j + q, and the stored value
  there, ∑ₖ x (p, k) · w (q, k) + b (0, q), is ∑ₖ A (r, k) · B (s, k) + C (0, s) over the three whole operands A, B, C:
  a row of the first block is a row of A, a row of the second block a row of B. So every point writes its block of ONE
  array, the linear layer of A, B and C's row; the 256 blocks tile the result (entry (r, s) lies in the block of the
  point (r / 1024, s / 512)), and the result array ends as that layer.

  Everything about blocks is proved for ARBITRARY operand arrays A, B, C: it is a fact about the index maps alone.
  The arrays the region actually finds are put in at the very end.
-/
import proofs.«116575_j42734924595881_1_alg».proof.Proof.Gen.KernelIdeal.Value
import proofs.«116575_j42734924595881_1_alg».proof.Proof.Payload
import proofs.«116575_j42734924595881_1_alg».proof.Proof.Spec

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx Cert.QuantLinear
open Idealize.ShloMosaic.Pipeline (Dat)

theorem zero_offsets : (![0, 0] : Fin 2 → Nat) = fun _ => 0 := funext fun a => by fin_cases a <;> rfl

/-! ## The index maps on the grid -/

/-- Point t is (t / 32, t % 32): the first operand's block index is (t / 32, 0), the second's (t % 32, 0), the
    third's (0, t % 32), the result's (t / 32, t % 32). -/
theorem block_indices : ∀ t : Fin cfg0.N,
    win0_0.index t (0 : Fin 2) = t.val / 32 ∧ win0_0.index t (1 : Fin 2) = 0
    ∧ win0_1.index t (0 : Fin 2) = t.val % 32 ∧ win0_1.index t (1 : Fin 2) = 0
    ∧ win0_2.index t (0 : Fin 2) = 0 ∧ win0_2.index t (1 : Fin 2) = t.val % 32
    ∧ win0_3.index t (0 : Fin 2) = t.val / 32 ∧ win0_3.index t (1 : Fin 2) = t.val % 32 :=
  (by decide +kernel : ∀ t : Fin grid0.N, _)

theorem point_lt (t : Fin cfg0.N) : t.val < 256 := by
  have h1 := t.isLt
  have h2 : cfg0.N = 256 := N_0
  omega

/-! ## A block of an array, read -/

/-- Row p of block t of a first operand A is row 1024·(t / 32) + p of A. -/
theorem rows_of_first (t : Fin cfg0.N) (A : FVec Ideal S8192x4096 .bf16) (p : Fin 1024) (k : Fin 4096) (r : Fin 8192)
    (hr : r.val = t.val / 32 * 1024 + p.val) :
    (((cfg0.win 0).blk t).view.read (Elt Ideal) A : FVec Ideal S1024x4096 .bf16) (ix2 p k) = A (ix2 r k) := by
  obtain ⟨e0, e1, -⟩ := block_indices t
  rw [View.read_apply]
  refine congrArg A ?_
  funext a
  apply Fin.ext
  match a with
  | ⟨0, _⟩ => show win0_0.index t (0 : Fin 2) * 1024 + 1 * p.val = r.val; rw [e0, hr]; omega
  | ⟨1, _⟩ => show win0_0.index t (1 : Fin 2) * 4096 + 1 * k.val = k.val; rw [e1]; omega

/-- Row q of block t of a second operand B is row 512·(t % 32) + q of B. -/
theorem rows_of_second (t : Fin cfg0.N) (B : FVec Ideal S16384x4096 .bf16) (q : Fin 512) (k : Fin 4096) (s : Fin 16384)
    (hs : s.val = t.val % 32 * 512 + q.val) :
    (((cfg0.win 1).blk t).view.read (Elt Ideal) B : FVec Ideal S512x4096 .bf16) (ix2 q k) = B (ix2 s k) := by
  obtain ⟨-, -, e2, e3, -⟩ := block_indices t
  rw [View.read_apply]
  refine congrArg B ?_
  funext a
  apply Fin.ext
  match a with
  | ⟨0, _⟩ => show win0_1.index t (0 : Fin 2) * 512 + 1 * q.val = s.val; rw [e2, hs]; omega
  | ⟨1, _⟩ => show win0_1.index t (1 : Fin 2) * 4096 + 1 * k.val = k.val; rw [e3]; omega

/-- Entry q of block t of a one-row third operand C is entry 512·(t % 32) + q of C's row. -/
theorem entries_of_third (t : Fin cfg0.N) (C : FVec Ideal S1x16384 .f32) (q : Fin 512) (s : Fin 16384)
    (hs : s.val = t.val % 32 * 512 + q.val) :
    (((cfg0.win 2).blk t).view.read (Elt Ideal) C : FVec Ideal S1x512 .f32) (ix2 (0 : Fin 1) q) = C (ix2 (0 : Fin 1) s) := by
  obtain ⟨-, -, -, -, e4, e5, -⟩ := block_indices t
  rw [View.read_apply]
  refine congrArg C ?_
  funext a
  apply Fin.ext
  match a with
  | ⟨0, _⟩ => show win0_2.index t (0 : Fin 2) * 1 + 1 * 0 = 0; rw [e4]
  | ⟨1, _⟩ => show win0_2.index t (1 : Fin 2) * 512 + 1 * q.val = s.val; rw [e5, hs]; omega

/-- Entry (p, q) of the result's block t sits at row 1024·(t / 32) + p, column 512·(t % 32) + q of the result. -/
theorem place_in_result (t : Fin cfg0.N) (p : Fin 1024) (q : Fin 512)
    (hr : t.val / 32 * 1024 + p.val < 8192) (hs : t.val % 32 * 512 + q.val < 16384) :
    ((cfg0.win 3).blk t).view.emb (ix2 p q)
      = ix2 (⟨t.val / 32 * 1024 + p.val, hr⟩ : Fin 8192) (⟨t.val % 32 * 512 + q.val, hs⟩ : Fin 16384) := by
  obtain ⟨-, -, -, -, -, -, e6, e7⟩ := block_indices t
  funext a
  apply Fin.ext
  match a with
  | ⟨0, _⟩ => show win0_3.index t (0 : Fin 2) * 1024 + 1 * p.val = t.val / 32 * 1024 + p.val; rw [e6]; omega
  | ⟨1, _⟩ => show win0_3.index t (1 : Fin 2) * 512 + 1 * q.val = t.val % 32 * 512 + q.val; rw [e7]; omega

/-! ## What a point stores is its block of the layer -/

/-- For any operands A, B, C: entry y of what the body computes from their blocks at point t is the layer of A, B and
    C's row at y's place in the result array. -/
theorem stored_entry (t : Fin cfg0.N) (A : FVec Ideal S8192x4096 .bf16) (B : FVec Ideal S16384x4096 .bf16)
    (C : FVec Ideal S1x16384 .f32) (y : S1024x512.Idx) :
    k0_pay1 (F := Ideal) (((cfg0.win 0).blk t).view.read (Elt Ideal) A) (((cfg0.win 1).blk t).view.read (Elt Ideal) B)
        (((cfg0.win 2).blk t).view.read (Elt Ideal) C) y
      = linear (φ₁ := .bf16) (φ₂ := .bf16) A B (fun s => C (ix2 (0 : Fin 1) s)) (((cfg0.win 3).blk t).view.emb y) := by
  obtain ⟨p, q, rfl⟩ : ∃ (p : Fin 1024) (q : Fin 512), y = ix2 p q := ⟨y 0, y 1, eq_ix2 y⟩
  have hp : p.val < 1024 := p.isLt
  have hq : q.val < 512 := q.isLt
  have ht := point_lt t
  have hr : t.val / 32 * 1024 + p.val < 8192 := by omega
  have hs : t.val % 32 * 512 + q.val < 16384 := by omega
  refine ((Body.stored_apply _ _ _ p q).trans ?_).trans
    (congrArg (linear (φ₁ := .bf16) (φ₂ := .bf16) A B (fun s => C (ix2 (0 : Fin 1) s))) (place_in_result t p q hr hs).symm)
  refine Eq.trans ?_ (linear_apply (φ₁ := .bf16) (φ₂ := .bf16) A B (fun s => C (ix2 (0 : Fin 1) s)) ⟨_, hr⟩ ⟨_, hs⟩).symm
  unfold entry
  exact congrArg₂ (· + ·)
    (Finset.sum_congr rfl fun k _ => congrArg₂ (· * ·) (rows_of_first t A p k ⟨_, hr⟩ rfl) (rows_of_second t B q k ⟨_, hs⟩ rfl))
    (entries_of_third t C q ⟨_, hs⟩ rfl)

/-- A stored block X that agrees entry by entry with an array G at the block's places is, written back, block t of G. -/
theorem written_back (t : Fin cfg0.N) (X : Vec Ideal S1024x512 .f32) (G : S8192x16384.Idx → EReal)
    (h : ∀ y : S1024x512.Idx, X y = G (((cfg0.win 3).blk t).view.emb y)) :
    (cfg0.win 3).cut (grid0.coords t) X = ((cfg0.win 3).blk t).view.read (Elt Ideal) G :=
  funext fun y => h y

/-! ## The blocks tile the result -/

/-- An index of the result is in point t's block iff each coordinate is in the block's range on its axis. -/
theorem mem_block (t : Fin cfg0.N) (i : S8192x16384.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v99).slice (win0_3.rect t)).set ↔ _
  rw [View.set_slice_whole, Rect.mem_set_unit]
  exact Iff.rfl

/-- Entry (r, s) of the result lies in the block of the point (r / 1024, s / 512), which writes back. -/
theorem covered (i : S8192x16384.Idx) :
    ∃ t : Fin cfg0.N, (cfg0.win 3).flush t = true ∧ i ∈ ((cfg0.win 3).blk t).view.set := by
  have h0 : (i 0).val < 8192 := (i 0).isLt
  have h1 : (i 1).val < 16384 := (i 1).isLt
  have hN : cfg0.N = 256 := N_0
  obtain ⟨t, ht⟩ : ∃ t : Fin cfg0.N, t.val = (i 0).val / 1024 * 32 + (i 1).val / 512 := ⟨⟨_, by omega⟩, rfl⟩
  obtain ⟨-, -, -, -, -, -, e6, e7⟩ := block_indices t
  refine ⟨t, flush0_3 t, ?_⟩
  rw [mem_block]
  intro a
  match a with
  | ⟨0, _⟩ => show win0_3.index t (0 : Fin 2) * 1024 ≤ (i 0).val ∧ (i 0).val < win0_3.index t (0 : Fin 2) * 1024 + 1024; rw [e6, ht]; omega
  | ⟨1, _⟩ => show win0_3.index t (1 : Fin 2) * 512 ≤ (i 1).val ∧ (i 1).val < win0_3.index t (1 : Fin 2) * 512 + 512; rw [e7, ht]; omega

/-! ## The operands the region finds, put in -/

variable (m : (ℓ : Loc nD τ sig) → Buf (Elt Ideal) ℓ) (ρ : Dev nD → PrngReg)

/-- The linear layer of the three operand arrays as the region finds them. -/
def found (c : Dev nD) : S8192x16384.Idx → EReal :=
  linear (φ₁ := .bf16) (φ₂ := .bf16) (V m c (Pipeline.arrRef spec0 (0 : Fin cfg0.W))) (V m c (Pipeline.arrRef spec0 (1 : Fin cfg0.W)))
    (fun s => (V m c (Pipeline.arrRef spec0 (2 : Fin cfg0.W)) : S1x16384.Idx → Elt Ideal .f32) (ix2 (0 : Fin 1) s))

/-- WHAT POINT t WRITES BACK is block t of that layer. -/
theorem flushed_eq (c : Dev nD) (t : Fin cfg0.N) :
    (dats m 0 c).flushed 3 t = ((cfg0.win 3).blk t).view.read (Elt Ideal) (found m c) := by
  rw [Value.flushed3]
  unfold out0_3
  rw [View.canon_unit_zero zero_offsets]
  simp only [View.ld_unit_zero (S := S1024x4096) zero_offsets, View.ld_unit_zero (S := S512x4096) zero_offsets,
    View.ld_unit_zero (S := S1x512) zero_offsets]
  unfold iblk found
  exact written_back t _ _ (stored_entry t _ _ _)

/-- THE RESULT ARRAY after the run is the linear layer of the three operands the region finds. -/
theorem final (c : Dev nD) : (dats m 0 c).arrAt 3 cfg0.N = found m c :=
  (dats m 0 c).arrAt_eq_of_cover 3 (found m c) (fun t _ => flushed_eq m c t) covered

end Cert.KernelIdeal.Blocks

end
-- ==== Proof.Prelude.lean ====
/-
  The three arrays the kernel's region finds, as terms of the arguments.

  Before its one region the kernel's program runs the same rotation and quantisation as the reference, operation for
  operation and literal for literal, on the weights and on the activations; it then narrows both results to bf16 and
  lays the bias out as one row of 16384. So the region's first operand is the narrowing of the quantised activations
  Xq, its second the narrowing of the quantised weights Wq — the very stages the reference's last four operations
  consume — and its third the bias cast to shape [1, 16384]. Each equation below reads one buffer after the program's
  host operations and finds the composed term to be that stage; the stages themselves stay closed. They hold for any
  float instance: nothing here computes with a float. The operands are named as the region's windows name them, window
  0, 1 and 2's arrays, which are the buffers of the two narrowings and of the cast.
-/
import proofs.«116575_j42734924595881_1_alg».proof.Proof.Gen.KernelIdeal.Frame
import proofs.«116575_j42734924595881_1_alg».proof.Proof.Gen.ReferenceIdeal.Read
import Idealize.ShloMosaic.Lib.StableHlo.Run

noncomputable section

namespace Cert.KernelIdeal.Entry

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

set_option maxRecDepth 8192 in
set_option maxHeartbeats 8000000 in
/-- The region's first operand is the quantised activations, narrowed to bf16. -/
theorem acts_eq (c : Dev nD) :
    (V m c (Pipeline.arrRef spec0 (0 : Fin cfg0.W)) : S8192x4096.Idx → Elt F .bf16)
      = truncf .bf16 (Cert.ReferenceIdeal.Read.val_main_v95 (F := F) (m ((c : Thread nD τ).loc main_arg0)) (m ((c : Thread nD τ).loc main_arg3))) bitsLt_bf16_f32 := by
  show (V m c main_v96 : S8192x4096.Idx → Elt F .bf16) = _
  dsimp only [V]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

set_option maxRecDepth 8192 in
set_option maxHeartbeats 8000000 in
/-- The region's second operand is the quantised weights, narrowed to bf16. -/
theorem weights_eq (c : Dev nD) :
    (V m c (Pipeline.arrRef spec0 (1 : Fin cfg0.W)) : S16384x4096.Idx → Elt F .bf16)
      = truncf .bf16 (Cert.ReferenceIdeal.Read.val_main_v47 (F := F) (m ((c : Thread nD τ).loc main_arg1)) (m ((c : Thread nD τ).loc main_arg3))) bitsLt_bf16_f32 := by
  show (V m c main_v97 : S16384x4096.Idx → Elt F .bf16) = _
  dsimp only [V]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

set_option maxRecDepth 8192 in
set_option maxHeartbeats 8000000 in
/-- The region's third operand is the bias laid out as one row. -/
theorem bias_eq (c : Dev nD) :
    (V m c (Pipeline.arrRef spec0 (2 : Fin cfg0.W)) : S1x16384.Idx → Elt F .f32)
      = shapeCast S1x16384 (m ((c : Thread nD τ).loc main_arg2)) shapeCasts_S16384_S1x16384 := by
  show (V m c main_v98 : S1x16384.Idx → Elt F .f32) = _
  dsimp only [V]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

end Cert.KernelIdeal.Entry

end
-- ==== Proof.KernelValue.lean ====
/-
  The kernel's run, with its result named.

  The result array ends as the linear layer of the three operands the region finds (the blocks, tiled); those operands
  are the quantised activations and the quantised weights, each narrowed to bf16, and the bias as one row (the host
  operations before the region, read). On the extended reals the narrowing is the identity and entry s of the bias row
  is the bias at s. So the kernel's result is the linear layer of the quantised activations, the quantised weights and
  the bias — the same two stages, of the same arguments, that the reference's last operations consume.
-/
import proofs.«116575_j42734924595881_1_alg».proof.Proof.Blocks
import proofs.«116575_j42734924595881_1_alg».proof.Proof.Prelude

noncomputable section

namespace Cert.KernelIdeal.KernelValue

open Cert.KernelIdeal Cert.KernelIdeal.Gen Idealize.ShloMosaic Idealize.ShloMosaic.TcCoe Idealize.SL.Sem
open Idealize.ShloMosaic.ValueIdx Cert.QuantLinear

variable (m : (ℓ : Loc nD τ sig) → Buf (Elt Ideal) ℓ) (ρ : Dev nD → PrngReg)

/-- The kernel's result as a function of the argument arrays: the linear layer of the quantised activations, the
    quantised weights and the bias. -/
def result (c : Dev nD) : S8192x16384.Idx → EReal :=
  linear (φ₁ := .f32) (φ₂ := .f32)
    (Cert.ReferenceIdeal.Read.val_main_v95 (F := Ideal) (m ((c : Thread nD τ).loc main_arg0)) (m ((c : Thread nD τ).loc main_arg3)))
    (Cert.ReferenceIdeal.Read.val_main_v47 (F := Ideal) (m ((c : Thread nD τ).loc main_arg1)) (m ((c : Thread nD τ).loc main_arg3)))
    (fun s => (m ((c : Thread nD τ).loc main_arg2) : S16384.Idx → Elt Ideal .f32) (ix1 s))

/-- The layer of the operands the region finds is the layer of the quantised arrays and the bias. -/
theorem found_eq (c : Dev nD) : Blocks.found m c = result m c :=
  linear_of_operands _ _ _ _ _ _ bitsLt_bf16_f32 bitsLt_bf16_f32 shapeCasts_S16384_S1x16384
    (Entry.acts_eq m c) (Entry.weights_eq m c) (Entry.bias_eq m c)

/-- Every weakly fair execution of the kernel's program terminates with the result array at `result` and the
    arguments unchanged. -/
theorem run : θ_run defs (onTc (τ := τ) (main (F := Ideal))) ⟨m, fun _ => 0, ρ⟩ fun r => ∀ c : Dev nD,
      r.2.mem ((c : Thread nD τ).loc main_v99) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((Blocks.final m c).trans (found_eq m c)), (h c).2⟩)
    (Cert.KernelIdeal.Value.run_blocks m ρ)

end Cert.KernelIdeal.KernelValue

end
-- ==== Proof.RefValue.lean ====
/-
  The reference's result is the linear layer of its two quantised arrays.

  The reference ends with four operations on the quantised weights Wq (16384 × 4096), the quantised activations Xq
  (8192 × 4096) and the bias: it transposes Wq, contracts Xq's columns with the transpose's rows, lays the bias out as
  one row broadcast over 8192 rows, and adds. Read at (p, q): the contraction is ∑ₖ Xq (p, k) · Wqᵀ (k, q), the
  transpose at (k, q) is Wq at (q, k), and the broadcast bias at (p, q) is the bias at q. That is entry (p, q) of the
  linear layer. How Xq and Wq are computed from the arguments (the rotation and the quantisation) is never opened:
  they enter only as the two named stages.
-/
import proofs.«116575_j42734924595881_1_alg».proof.Proof.Gen.ReferenceIdeal.Read
import proofs.«116575_j42734924595881_1_alg».proof.Proof.Spec

noncomputable section

open scoped BigOperators

namespace Cert.ReferenceIdeal.RefValue

open Cert.ReferenceIdeal Cert.ReferenceIdeal.Read Idealize.ShloMosaic Idealize.ShloMosaic.ValueIdx Cert.QuantLinear

/-- The reference's last stage, as a function of the four arguments, is the linear layer of the quantised activations,
    the quantised weights and the bias. -/
theorem result_eq (x0 : (⟨S8192x4096, .f32⟩ : BufTy).Contents (Elt Ideal)) (x1 : (⟨S16384x4096, .f32⟩ : BufTy).Contents (Elt Ideal))
    (x2 : (⟨S16384, .f32⟩ : BufTy).Contents (Elt Ideal)) (x3 : (⟨S32x32, .f32⟩ : BufTy).Contents (Elt Ideal)) :
    val_main_v100 (F := Ideal) x0 x1 x2 x3
      = linear (φ₁ := .f32) (φ₂ := .f32) (val_main_v95 (F := Ideal) x0 x3) (val_main_v47 (F := Ideal) x1 x3) (fun q => x2 (ix1 q)) := by
  funext i
  obtain ⟨p, q, rfl⟩ : ∃ (p : Fin 8192) (q : Fin 16384), i = ix2 p q := ⟨i 0, i 1, eq_ix2 i⟩
  have el : ∀ k : Fin 4096, lidx_main_v97 (ix2 p q) k = ix2 p k := fun k => funext fun a => Fin.ext (by
    match a with | ⟨0, _⟩ => rfl | ⟨1, _⟩ => rfl)
  have er : ∀ k : Fin 4096, idx_main_v96 (ridx_main_v97 (ix2 p q) k) = ix2 q k := fun k => funext fun a => Fin.ext (by
    match a with | ⟨0, _⟩ => rfl | ⟨1, _⟩ => rfl)
  have eb : idx_main_v98 (idx_main_v99 (ix2 p q)) = ix1 q := funext fun a => Fin.ext (by
    match a with | ⟨0, _⟩ => rfl)
  rw [linear_apply, val_main_v100_apply, val_main_v97_apply, val_main_v99_apply, val_main_v98_apply, eb]
  simp only [val_main_v96_apply, el, er]
  rfl

end Cert.ReferenceIdeal.RefValue

end
-- ==== Proof.lean ====
/-
  A quantised linear layer: the kernel computes it block by block on the matrix unit, the reference as one product.

  Both programs first rotate the weights and the activations by a 32 × 32 Hadamard matrix, group of 32 by group of 32,
  and quantise each group to a four-bit float grid under a shared power-of-two scale — the same operations with the
  same literals in the same order in both programs. The kernel then narrows the two quantised arrays to bf16 and, on
  an 8 × 32 grid, multiplies a block of 1024 activation rows by a block of 512 weight rows (the weight rows becoming
  the result's columns, accumulating into zero) and adds the bias entries of those columns; the reference transposes
  the quantised weights, takes one 8192 × 4096 by 4096 × 16384 product and adds the bias broadcast over the rows.

  On the extended reals a narrowing is the identity, so both results are

      out (p, q) = ∑ₖ Xq (p, k) · Wq (q, k) + b q,

  one sum with the same summands in the same order: no term is moved across a sum, no finiteness of the inputs is
  needed, and the precondition is never opened. The rotation and the quantisation enter only as two stages of the
  arguments, Xq and Wq, common to both programs; they are never opened either.

  The frames of the two kernel programs are their frame runs; the reference's frame is its run with the result
  dropped; the idealisation rewrote no operation, so there is nothing to preserve.
-/
import proofs.«116575_j42734924595881_1_alg».proof.Defs
import proofs.«116575_j42734924595881_1_alg».proof.Proof.Gen.Kernel
import proofs.«116575_j42734924595881_1_alg».proof.Proof.Gen.Kernel.Skeleton
import proofs.«116575_j42734924595881_1_alg».proof.Proof.Gen.Kernel.Launch
import proofs.«116575_j42734924595881_1_alg».proof.Proof.Gen.Kernel.Points
import proofs.«116575_j42734924595881_1_alg».proof.Proof.Gen.Kernel.Frame
import proofs.«116575_j42734924595881_1_alg».proof.Proof.Gen.KernelIdeal
import proofs.«116575_j42734924595881_1_alg».proof.Proof.Gen.KernelIdeal.Skeleton
import proofs.«116575_j42734924595881_1_alg».proof.Proof.Gen.KernelIdeal.Launch
import proofs.«116575_j42734924595881_1_alg».proof.Proof.Gen.KernelIdeal.Points
import proofs.«116575_j42734924595881_1_alg».proof.Proof.Gen.KernelIdeal.Frame
import proofs.«116575_j42734924595881_1_alg».proof.Proof.Gen.ReferenceIdeal
import proofs.«116575_j42734924595881_1_alg».proof.Proof.Gen.KernelIdeal.Value
import proofs.«116575_j42734924595881_1_alg».proof.Proof.Gen.ReferenceIdeal.Run
import proofs.«116575_j42734924595881_1_alg».proof.Proof.Gen.ReferenceIdeal.Read
import proofs.«116575_j42734924595881_1_alg».proof.Proof.Gen.Pre_finite_inputs
import proofs.«116575_j42734924595881_1_alg».proof.Proof.KernelValue
import proofs.«116575_j42734924595881_1_alg».proof.Proof.RefValue
import Idealize.ShloMosaic.Adequacy
import Idealize.ShloMosaic.Init

noncomputable section

namespace Cert.Proof

open Idealize.ShloMosaic Idealize.ShloMosaic.TcCoe Idealize.SL.Sem

/-- The kernel's program, word for word: it runs, and its arguments end unchanged. -/
theorem frame_kernel : Cert.frame_Kernel := fun m ρ _ => Cert.Kernel.Gen.frame m ρ

/-- The same program read on the extended reals. -/
theorem frame_kernelIdeal : Cert.frame_KernelIdeal := fun m ρ _ => Cert.KernelIdeal.Gen.frame m ρ

/-- The reference runs and leaves its arguments unchanged: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- From memories that agree on the arguments both programs end with the same result array: the linear layer of the
    quantised activations, the quantised weights and the bias. The kernel's run names it so; the reference's last stage
    is that layer of its own arguments, which are the kernel's. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v100_eq, Cert.ReferenceIdeal.RefValue.result_eq,
    (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
